-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x2048 : Shape := ⟨4, ![2, 16, 2048, 2048]⟩
abbrev S2x1x2048x2048 : Shape := ⟨4, ![2, 1, 2048, 2048]⟩
abbrev S_ : Shape := ⟨0, ![]⟩

class Facts : Prop where
  bcast_S_S2x16x2048x2048 : S_.BroadcastsInDim S2x16x2048x2048 (![] : Fin 0 → Fin S2x16x2048x2048.rank)
  reducesTo_S2x16x2048x2048_S_d0_1_2_3 : S2x16x2048x2048.ReducesTo [0, 1, 2, 3] S_
  h_S_ : 0 < S_.numel

variable [Facts]

def fn {F : FTy → Type} [FloatOps F] (main_arg0 : FVec F S2x16x2048x2048 .f32) (main_arg1 : IVec S2x1x2048x2048 1) : IVec S_ 1 :=
  let main_v0 : FVec F S2x16x2048x2048 .f32 := Host.absf main_arg0
  let main_cst : FVec F S_ .f32 := constant S_ .f32 0x7F800000#32
  let main_v1 : FVec F S2x16x2048x2048 .f32 := broadcastInDim S2x16x2048x2048 ![] bcast_S_S2x16x2048x2048 main_cst
  let main_v2 : IVec S2x16x2048x2048 1 := cmpf .olt main_v0 main_v1
  let main_c : IVec S_ 1 := constantI S_ 1 1#1
  let main_v3 : IVec S_ 1 := (fun x v => Host.reduce IntOp.andi x v reducesTo_S2x16x2048x2048_S_d0_1_2_3 h_S_) main_v2 main_c
  main_v3
-- ==== Kernel.lean ====
abbrev S2x16x2048x2048 : Shape := ⟨4, ![2, 16, 2048, 2048]⟩
abbrev S2x1x2048x2048 : Shape := ⟨4, ![2, 1, 2048, 2048]⟩
abbrev S32x2048x2048 : Shape := ⟨3, ![32, 2048, 2048]⟩
abbrev S1x256x2048 : Shape := ⟨3, ![1, 256, 2048]⟩
abbrev S1x256 : Shape := ⟨2, ![1, 256]⟩
abbrev S1x256x1 : Shape := ⟨3, ![1, 256, 1]⟩

abbrev nBuf : Space → Nat
  | .hbm => 5
  | .vmem => 4
  | .smem => 0
  | _ => 0

abbrev bufTy : (tb : Table) → Fin (tcTables nBuf tb) → BufTy
  | .hbm, ⟨0, _⟩ => ⟨S2x16x2048x2048, .f32⟩
  | .hbm, ⟨1, _⟩ => ⟨S2x1x2048x2048, .i1⟩
  | .hbm, ⟨2, _⟩ => ⟨S32x2048x2048, .f32⟩
  | .hbm, ⟨3, _⟩ => ⟨S32x2048x2048, .f32⟩
  | .hbm, ⟨4, _⟩ => ⟨S2x16x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | _, _ => ⟨S2x16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S2x16x2048x2048_S32x2048x2048 : S2x16x2048x2048.ShapeCasts S32x2048x2048
  iota_S1x256x2048_d1_w32 : S1x256x2048.Iotas .tc 32 [1]
  iota_S1x256x2048_d2_w32 : S1x256x2048.Iotas .tc 32 [2]
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S1x256x2048 : S1x256x2048.ShapeCasts S1x256x2048
  reduces_S1x256x2048_S1x256 : S1x256x2048.Reduces [2] S1x256
  shapeCasts_S1x256_S1x256x1 : S1x256.ShapeCasts S1x256x1
  broadcasts_S1x256x1_S1x256x2048 : S1x256x1.Broadcasts S1x256x2048
  shapeCasts_S32x2048x2048_S2x16x2048x2048 : S32x2048x2048.ShapeCasts S2x16x2048x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S32x2048x2048.size a
  hwx0_0 : ∀ i : grid0.Coords, EltTy.bits .f32 = 32 ∨ (Rect.block (s := S32x2048x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S32x2048x2048.size a
  hwx0_1 : ∀ i : grid0.Coords, EltTy.bits .f32 = 32 ∨ (Rect.block (s := S32x2048x2048) S1x256x2048.size (cc0_transform_1 i) (hinb0_1 i)).WholeWords (EltTy.packing .f32)

variable [Facts₀]

abbrev win0_0 : Pipeline.Window sig grid0 :=
  Pipeline.Window.ofSpec (Memref.whole main_v0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x16x2048x2048 : Shape := ⟨4, ![2, 16, 2048, 2048]⟩
abbrev S2x1x2048x2048 : Shape := ⟨4, ![2, 1, 2048, 2048]⟩
abbrev S_ : Shape := ⟨0, ![]⟩
abbrev S2048x2048 : Shape := ⟨2, ![2048, 2048]⟩
abbrev S2x16x2048 : Shape := ⟨3, ![2, 16, 2048]⟩
abbrev S2x16x2048x1 : Shape := ⟨4, ![2, 16, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S2x16x2048x2048, .f32⟩
  | .hbm, ⟨1, _⟩ => ⟨S2x1x2048x2048, .i1⟩
  | .hbm, ⟨2, _⟩ => ⟨S_, .i1⟩
  | .hbm, ⟨3, _⟩ => ⟨S2048x2048, .i1⟩
  | .hbm, ⟨4, _⟩ => ⟨S2048x2048, .i32⟩
  | .hbm, ⟨5, _⟩ => ⟨S_, .i32⟩
  | .hbm, ⟨6, _⟩ => ⟨S2048x2048, .i32⟩
  | .hbm, ⟨7, _⟩ => ⟨S2048x2048, .i32⟩
  | .hbm, ⟨8, _⟩ => ⟨S2048x2048, .i32⟩
  | .hbm, ⟨9, _⟩ => ⟨S2048x2048, .i1⟩
  | .hbm, ⟨10, _⟩ => ⟨S_, .i1⟩
  | .hbm, ⟨11, _⟩ => ⟨S2048x2048, .i1⟩
  | .hbm, ⟨12, _⟩ => ⟨S2048x2048, .i1⟩
  | .hbm, ⟨13, _⟩ => ⟨S_, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S_, .f32⟩
  | .hbm, ⟨18, _⟩ => ⟨S2x16x2048x2048, .i1⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S_, .f32⟩
  | .hbm, ⟨24, _⟩ => ⟨S2x16x2048, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S2x16x2048x1, .f32⟩
  | .hbm, ⟨33, _⟩ => ⟨S2x16x2048x2048, .f32⟩
  | .hbm, ⟨34, _⟩ => ⟨S2x16x2048x2048, .f32⟩
  | _, _ => ⟨S2x16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_0 : Ref sig .tc := ⟨.hbm, 10, rfl⟩
abbrev main_call0_v5 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S_S2x16x2048x2048 : S_.BroadcastsInDim S2x16x2048x2048 (![] : Fin 0 → Fin S2x16x2048x2048.rank)
  bcast_S2048x2048_S2x16x2048x2048_2_3 : S2048x2048.BroadcastsInDim S2x16x2048x2048 (![2, 3] : Fin 2 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)

variable [Facts₀]

class Facts : Prop extends Facts₀ where

variable [Facts]
-- ==== Proof.RowSpec.lean ====
/-
  The mathematics both programs compute, stated once, with no program imported.

  For a row `g : Fin 2048 → EReal` the normalised exponentials are
      softmaxRow g c = exp (g c − M) / Σₖ exp (g k − M),   M = max over the row of g (the fold of `max` from −∞).
  The causal row at row number `r` keeps the scaled entry `f c · 2⁻³` where the column is at most the row
  (`c ≤ r`) and puts the finite fill value `−10³⁰` (as an f32 word) elsewhere; `rowOut r f = softmaxRow (keep r f)`.
  Nothing here needs finiteness of the entries: both programs apply the SAME operations in the SAME order to the
  same masked row, so the two results are one extended real whatever the entries are.

  Below the specification: the words (a 32-bit comparison of small naturals is the comparison of the naturals), and the
  part of the kernel body after masking — row maximum, subtraction, exponential, row sum, quotient on a
  [1, 256, 2048] block — read at an index as `softmaxRow` of the block's row.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.Affine

noncomputable section

open scoped BigOperators

namespace Cert.CausalSoftmax

open Idealize.ShloMosaic Idealize.ShloMosaic.ValueIdx

/-! ## The specification -/

/-- The scale 1/8, the fill value −10³⁰ (rounded to f32) and −∞, each as the extended real its f32 word denotes. The
    words are never evaluated: the same word stands on both sides. -/
abbrev scale : EReal := Ideal.ofBits .f32 0x3E000000#32
abbrev fill : EReal := Ideal.ofBits .f32 0xF149F2CA#32
abbrev negInf : EReal := Ideal.ofBits .f32 0xFF800000#32

/-- The causal mask on row `r`: column `c` keeps its scaled entry when `c ≤ r`, and holds the fill value otherwise. -/
def keep (r : ℕ) (f : Fin 2048 → EReal) (c : Fin 2048) : EReal := if c.val ≤ r then f c * scale else fill

/-- Exponentials of a row shifted by its maximum, divided by their sum. -/
def softmaxRow (g : Fin 2048 → EReal) (c : Fin 2048) : EReal :=
  Ideal.div (Ideal.exp (g c - Finset.univ.fold max negInf g)) (∑ k : Fin 2048, Ideal.exp (g k - Finset.univ.fold max negInf g))

/-- The causal softmax of row `r`. -/
def rowOut (r : ℕ) (f : Fin 2048 → EReal) (c : Fin 2048) : EReal := softmaxRow (keep r f) c

/-- The result over the array viewed as 32 matrices of 2048 × 2048: entry (a, r, c) is the causal softmax of row
    `r` of matrix `a`, at column `c`. -/
def G3 (x : (⟨3, ![32, 2048, 2048]⟩ : Shape).Idx → EReal) : (⟨3, ![32, 2048, 2048]⟩ : Shape).Idx → EReal :=
  fun i => rowOut (i 1).val (fun k => x (ix3 (⟨(i 0).val, (i 0).isLt⟩ : Fin 32) (⟨(i 1).val, (i 1).isLt⟩ : Fin 2048) k))
    ⟨(i 2).val, (i 2).isLt⟩

/-- The same over the array as given, [2, 16, 2048, 2048]. -/
def G4 (x : (⟨4, ![2, 16, 2048, 2048]⟩ : Shape).Idx → EReal) : (⟨4, ![2, 16, 2048, 2048]⟩ : Shape).Idx → EReal :=
  fun i => rowOut (i 2).val
    (fun k => x (ix4 (⟨(i 0).val, (i 0).isLt⟩ : Fin 2) (⟨(i 1).val, (i 1).isLt⟩ : Fin 16) (⟨(i 2).val, (i 2).isLt⟩ : Fin 2048) k))
    ⟨(i 3).val, (i 3).isLt⟩

theorem G3_apply (x : (⟨3, ![32, 2048, 2048]⟩ : Shape).Idx → EReal) (a : Fin 32) (r c : Fin 2048) :
    G3 x (ix3 a r c) = rowOut r.val (fun k => x (ix3 a r k)) c := rfl

theorem G4_apply (x : (⟨4, ![2, 16, 2048, 2048]⟩ : Shape).Idx → EReal) (b : Fin 2) (h : Fin 16) (r c : Fin 2048) :
    G4 x (ix4 b h r c) = rowOut r.val (fun k => x (ix4 b h r k)) c := rfl

/-! ## Words: comparisons of small naturals -/

/-- A natural below 2³¹ read back signed from its 32-bit word is itself. -/
theorem toInt_ofNat_small (n : ℕ) (h : n < 2 ^ 31) : (BitVec.ofNat 32 n).toInt = (n : ℤ) := by
  rw [BitVec.toInt_ofNat', Int.bmod_def]; push_cast; split <;> omega

/-- The kernel's row number: 256 times the row-tile number plus the row inside the tile, without wrapping. -/
theorem rowWord (j p : ℕ) (hj : j < 8) (hp : p < 256) :
    (IntOp.addi (Scalar.muli (BitVec.ofNat 32 j) 256#32) (BitVec.ofNat 32 p)).toInt = ((j * 256 + p : ℕ) : ℤ) := by
  have e : IntOp.addi (Scalar.muli (BitVec.ofNat 32 j) 256#32) (BitVec.ofNat 32 p) = BitVec.ofNat 32 (j * 256 + p) := by
    unfold IntOp.addi Scalar.muli IntOp.muli
    simp [BitVec.ofNat_add, BitVec.ofNat_mul]
  rw [e]; exact toInt_ofNat_small _ (by omega)

/-- The reference's row number: the row plus the word zero. -/
theorem rowWordHost (r : ℕ) (hr : r < 2048) :
    (IntOp.addi (BitVec.ofNat 32 r) 0#32).toInt = (r : ℤ) := by
  have e : IntOp.addi (BitVec.ofNat 32 r) 0#32 = BitVec.ofNat 32 r := by
    unfold IntOp.addi; simp
  rw [e]; exact toInt_ofNat_small _ (by omega)

/-- A select on "column ≤ row", signed, of words that denote small naturals is the `if` on the naturals. -/
theorem select_sle (q r : ℕ) (hq : q < 2 ^ 31) (x : BitVec 32) (hx : x.toInt = (r : ℤ)) {α : Type} (a b : α) :
    Scalar.select (IntOp.cmpi .sle (BitVec.ofNat 32 q) x) a b = if q ≤ r then a else b := by
  unfold Scalar.select
  refine if_congr (IntOp.cmpi_sle.trans ?_) rfl rfl
  rw [toInt_ofNat_small q hq, hx]; exact Int.ofNat_le

/-- The same for "row ≥ column". -/
theorem select_sge (q r : ℕ) (hq : q < 2 ^ 31) (x : BitVec 32) (hx : x.toInt = (r : ℤ)) {α : Type} (a b : α) :
    Scalar.select (IntOp.cmpi .sge x (BitVec.ofNat 32 q)) a b = if q ≤ r then a else b := by
  unfold Scalar.select
  refine if_congr (IntOp.cmpi_sge.trans ?_) rfl rfl
  rw [toInt_ofNat_small q hq, hx]; exact Int.ofNat_le

/-- Selecting the bits 1 and 0 by a bit and then selecting by the result is selecting by the bit. -/
theorem select_bit {α : Type} (c : BitVec 1) (a b : α) : Scalar.select (Scalar.select c 1#1 0#1) a b = Scalar.select c a b := by
  rcases BitVec.eq_zero_or_eq_one c with h | h <;> subst h <;> rfl

/-- The fold of `max` from a start value is at least the start value, so taking the maximum with it again changes nothing. -/
theorem max_fold_self {ι : Type} (s : Finset ι) (b : EReal) (g : ι → EReal) : max b (s.fold max b g) = s.fold max b g :=
  max_eq_right ((Finset.le_fold_max b).mpr (Or.inl le_rfl))

/-! ## The kernel body after masking, on a [1, 256, 2048] block -/

abbrev Blk : Shape := ⟨3, ![1, 256, 2048]⟩
abbrev BlkRow : Shape := ⟨2, ![1, 256]⟩
abbrev BlkCol : Shape := ⟨3, ![1, 256, 1]⟩

/-- A per-row value cast to a column [1, 256, 1] and broadcast along the row reads, at (0, p, q), the value of row `p`. -/
theorem keepdims_apply {α : Type} (v : BlkRow.Idx → α) (h1 : BlkRow.ShapeCasts BlkCol) (h2 : BlkCol.Broadcasts Blk)
    (p : Fin 256) (q : Fin 2048) :
    broadcastTo Blk (shapeCast BlkCol v h1) h2 (ix3 (0 : Fin 1) p q) = v (ix2 (0 : Fin 1) p) := by
  refine (broadcastTo_apply (shapeCast BlkCol v h1) h2 (ix3 (0 : Fin 1) p q) (ix3 (0 : Fin 1) p (0 : Fin 1)) ?_).trans ?_
  · intro a
    match a with
    | ⟨0, _⟩ => rfl
    | ⟨1, _⟩ => rfl
    | ⟨2, _⟩ => rfl
  · refine shapeCast_apply v h1 (ix3 (0 : Fin 1) p (0 : Fin 1)) (ix2 (0 : Fin 1) p) ?_
    rw [Shape.rowMajor_val_two, Shape.rowMajor_val_three]
    show (0 : ℕ) * 256 + p.val = ((0 : ℕ) * 256 + p.val) * 1 + 0
    omega

/-- The index over (0, p) with column `k` inserted is (0, p, k). -/
theorem lift_row (h : Blk.Reduces [2] BlkRow) (p : Fin 256) (k : Fin 2048) :
    h.lift (ix2 (0 : Fin 1) p) k = ix3 (0 : Fin 1) p k := by
  funext a
  refine Fin.ext ?_
  match a with
  | ⟨0, _⟩ => rfl
  | ⟨1, _⟩ => rfl
  | ⟨2, _⟩ => rfl

/-- The maximum of a block over its columns is, in row `p`, the fold of `max` from −∞ over that row. -/
theorem blockRowMax (m : FVec Ideal Blk .f32) (h : Blk.Reduces [2] BlkRow) (hφ : FKind.Formats .f32)
    (hacc : (0xFF800000#32 : BitVec 32) = FKind.maximumf.neutral .f32 hφ) (p : Fin 256) :
    multiReduction .maximumf [2] BlkRow m 0xFF800000#32 h hφ hacc (ix2 (0 : Fin 1) p)
      = Finset.univ.fold max negInf (fun k : Fin 2048 => m (ix3 (0 : Fin 1) p k)) := by
  refine (Ideal.multiReduction_maximumf_single m _ h hφ hacc (ix2 (0 : Fin 1) p)).trans ?_
  show Finset.univ.fold max negInf (fun k : Fin 2048 => m (h.lift (ix2 (0 : Fin 1) p) k)) = _
  refine congrArg (fun g => Finset.univ.fold max negInf g) (funext fun k => ?_)
  rw [lift_row]

/-- The sum of a block over its columns is, in row `p`, the sum over that row. -/
theorem blockRowSum (e : FVec Ideal Blk .f32) (h : Blk.Reduces [2] BlkRow) (hφ : FKind.Formats .f32)
    (hacc : (0x00000000#32 : BitVec 32) = FKind.add.neutral .f32 hφ) (p : Fin 256) :
    multiReduction .add [2] BlkRow e 0x00000000#32 h hφ hacc (ix2 (0 : Fin 1) p)
      = ∑ k : Fin 2048, e (ix3 (0 : Fin 1) p k) := by
  refine (Ideal.multiReduction_add_single e _ h hφ hacc (ix2 (0 : Fin 1) p)).trans ?_
  show ∑ k : Fin 2048, e (h.lift (ix2 (0 : Fin 1) p) k) = _
  refine Finset.sum_congr rfl fun k _ => ?_
  rw [lift_row]

/-- The body after masking: row maximum (kept as a column and broadcast), subtraction, exponential, row sum (likewise),
    quotient — as one function of the masked block. -/
def blockSoftmax (m : FVec Ideal Blk .f32) (h : Blk.Reduces [2] BlkRow) (hφ : FKind.Formats .f32)
    (hmax : (0xFF800000#32 : BitVec 32) = FKind.maximumf.neutral .f32 hφ) (hadd : (0x00000000#32 : BitVec 32) = FKind.add.neutral .f32 hφ)
    (h1 : BlkRow.ShapeCasts BlkCol) (h2 : BlkCol.Broadcasts Blk) : FVec Ideal Blk .f32 :=
  divf (Idealize.ShloMosaic.exp (subf m (broadcastTo Blk (shapeCast BlkCol (multiReduction .maximumf [2] BlkRow m 0xFF800000#32 h hφ hmax) h1) h2)))
    (broadcastTo Blk (shapeCast BlkCol (multiReduction .add [2] BlkRow
      (Idealize.ShloMosaic.exp (subf m (broadcastTo Blk (shapeCast BlkCol (multiReduction .maximumf [2] BlkRow m 0xFF800000#32 h hφ hmax) h1) h2)))
      0x00000000#32 h hφ hadd) h1) h2)

/-- Read at (0, p, q) it is the normalised exponentials of row `p` of the masked block, at column `q`. -/
theorem blockSoftmax_apply (m : FVec Ideal Blk .f32) (h : Blk.Reduces [2] BlkRow) (hφ : FKind.Formats .f32)
    (hmax : (0xFF800000#32 : BitVec 32) = FKind.maximumf.neutral .f32 hφ) (hadd : (0x00000000#32 : BitVec 32) = FKind.add.neutral .f32 hφ)
    (h1 : BlkRow.ShapeCasts BlkCol) (h2 : BlkCol.Broadcasts Blk) (p : Fin 256) (q : Fin 2048) :
    blockSoftmax m h hφ hmax hadd h1 h2 (ix3 (0 : Fin 1) p q) = softmaxRow (fun k => m (ix3 (0 : Fin 1) p k)) q := by
  have hshift : ∀ k : Fin 2048,
      Idealize.ShloMosaic.exp (subf m (broadcastTo Blk (shapeCast BlkCol (multiReduction .maximumf [2] BlkRow m 0xFF800000#32 h hφ hmax) h1) h2))
          (ix3 (0 : Fin 1) p k)
        = Ideal.exp (m (ix3 (0 : Fin 1) p k) - Finset.univ.fold max negInf (fun k : Fin 2048 => m (ix3 (0 : Fin 1) p k))) := by
    intro k
    show Ideal.exp (m (ix3 (0 : Fin 1) p k)
      - broadcastTo Blk (shapeCast BlkCol (multiReduction .maximumf [2] BlkRow m 0xFF800000#32 h hφ hmax) h1) h2 (ix3 (0 : Fin 1) p k)) = _
    rw [keepdims_apply, blockRowMax]
  show Ideal.div _ _ = Ideal.div _ _
  rw [hshift q, keepdims_apply, blockRowSum]
  refine congrArg (Ideal.div _) (Finset.sum_congr rfl fun k _ => hshift k)

end Cert.CausalSoftmax

end
-- ==== Proof.KernelBlock.lean ====
/-
  What one grid point of the kernel writes, read at an index.

  The body loads its whole [1, 256, 2048] block, masks it with the causal condition "column ≤ 256·j + row inside the tile"
  (`j` the point's row-tile number), and applies the row operations of `blockSoftmax`. Read at (0, p, q) the stored
  value is the causal softmax of row `256·j + p`, taken over the loaded block's row `p`, at column `q`.
-/
import proofs.«114025_j27779848470603_1_alg».proof.Proof.KernelIdealFrame
import proofs.«114025_j27779848470603_1_alg».proof.Proof.RowSpec

noncomputable section

namespace Cert.KernelIdeal.RowValue

open Cert.KernelIdeal Cert.KernelIdeal.Gen Cert.KernelIdeal.GenP
open Idealize.ShloMosaic Idealize.ShloMosaic.TcCoe Idealize.SL.Sem Idealize.ShloMosaic.ValueIdx Cert.CausalSoftmax

/-- The masked block: the scaled entries where the column is at most the row's number in the whole matrix, the fill value elsewhere. -/
def masked (i : grid0.Coords) (x0 : Vec Ideal S1x256x2048 .f32) : FVec Ideal S1x256x2048 .f32 :=
  select (cmpi .sle (iota .tc S1x256x2048 32 [2] iota_S1x256x2048_d2_w32)
      (addi (broadcast S1x256x2048 (Scalar.muli (BitVec.ofNat 32 (i 1).val) 256#32)) (iota .tc S1x256x2048 32 [1] iota_S1x256x2048_d1_w32)))
    (mulf (shapeCast S1x256x2048 x0 shapeCasts_S1x256x2048_S1x256x2048) (broadcast S1x256x2048 (Scalar.ofBits .f32 0x3E000000#32)))
    (broadcast S1x256x2048 (Scalar.ofBits .f32 0xF149F2CA#32))

/-- The stored value is the row operations applied to the masked block. -/
theorem pay_eq (i : grid0.Coords) (x0 : Vec Ideal S1x256x2048 .f32) :
    k0_pay1 (F := Ideal) i x0 = blockSoftmax (masked i x0) reduces_S1x256x2048_S1x256 (.inl rfl) rfl rfl
      shapeCasts_S1x256_S1x256x1 broadcasts_S1x256x1_S1x256x2048 := rfl

/-- The masked block at (0, p, k): the causal mask of row 256·j + p applied to the loaded block's row `p`. -/
theorem masked_apply (i : grid0.Coords) (x0 : Vec Ideal S1x256x2048 .f32) (p : Fin 256) (k : Fin 2048) :
    masked i x0 (ix3 (0 : Fin 1) p k) = keep ((i 1).val * 256 + p.val) (fun k => x0 (ix3 (0 : Fin 1) p k)) k := by
  unfold masked
  show Scalar.select (IntOp.cmpi .sle (iota .tc S1x256x2048 32 [2] iota_S1x256x2048_d2_w32 (ix3 (0 : Fin 1) p k))
      (IntOp.addi (Scalar.muli (BitVec.ofNat 32 (i 1).val) 256#32) (iota .tc S1x256x2048 32 [1] iota_S1x256x2048_d1_w32 (ix3 (0 : Fin 1) p k))))
    (shapeCast S1x256x2048 x0 shapeCasts_S1x256x2048_S1x256x2048 (ix3 (0 : Fin 1) p k) * scale) fill = _
  rw [iota_single_apply, iota_single_apply, shapeCast_self]
  exact select_sle k.val ((i 1).val * 256 + p.val) (by have := k.isLt; omega) _ (rowWord (i 1).val p.val (i 1).isLt p.isLt) _ _

/-- The stored value at (0, p, q). -/
theorem pay_apply (i : grid0.Coords) (x0 : Vec Ideal S1x256x2048 .f32) (p : Fin 256) (q : Fin 2048) :
    k0_pay1 (F := Ideal) i x0 (ix3 (0 : Fin 1) p q)
      = rowOut ((i 1).val * 256 + p.val) (fun k => x0 (ix3 (0 : Fin 1) p k)) q := by
  rw [pay_eq]
  refine (blockSoftmax_apply (masked i x0) _ _ _ _ _ _ p q).trans ?_
  unfold rowOut
  exact congrArg (fun g => softmaxRow g q) (funext fun k => masked_apply i x0 p k)

/-- The same at any index of the block, by its coordinates. -/
theorem pay_apply_idx (i : grid0.Coords) (x0 : Vec Ideal S1x256x2048 .f32) (y : S1x256x2048.Idx) :
    k0_pay1 (F := Ideal) i x0 y
      = rowOut ((i 1).val * 256 + (y 1).val) (fun k => x0 (ix3 (0 : Fin 1) (⟨(y 1).val, (y 1).isLt⟩ : Fin 256) k))
          (⟨(y 2).val, (y 2).isLt⟩ : Fin 2048) := by
  obtain ⟨a, p, q, rfl⟩ : ∃ (a : Fin 1) (p : Fin 256) (q : Fin 2048), y = ix3 a p q := ⟨y 0, y 1, y 2, eq_ix3 y⟩
  obtain rfl : a = 0 := Subsingleton.elim _ _
  exact pay_apply i x0 p q

theorem hz : (![0, 0, 0] : Fin 3 → Nat) = fun _ => 0 := funext fun a => by fin_cases a <;> rfl

/-- The body's one store covers the output block, and its one load reads the whole input block: what the body leaves in
    the output block is the stored value of the input block. -/
theorem out_eq (i : grid0.Coords) (x0 : Vec Ideal S1x256x2048 .f32) : out0_1 (F := Ideal) i x0 = k0_pay1 i x0 := by
  unfold out0_1
  rw [View.canon_unit_zero hz]
  simp only [View.ld_unit_zero (S := S1x256x2048) hz]

end Cert.KernelIdeal.RowValue

end
-- ==== Proof.KernelArray.lean ====
/-
  From blocks to the array, and through the two regroupings around the kernel.

  The grid is 32 × 8: point (a, j) works on rows 256·j … 256·j + 255 of matrix `a`, all 2048 columns. Its input block and
  its output block sit at the same place, and the 256 output blocks tile the [32, 2048, 2048] array; so the array the
  kernel leaves is `G3` of the array it found, entry by entry. Before the kernel the argument [2, 16, 2048, 2048] is
  regrouped to [32, 2048, 2048] (same row-major order), and the kernel's array is regrouped back afterwards.
-/
import proofs.«114025_j27779848470603_1_alg».proof.Proof.KernelBlock
import Idealize.ShloMosaic.Lib.Pipeline.Value
import Idealize.ShloMosaic.Lib.StableHlo.Run

noncomputable section

namespace Cert.KernelIdeal.RowValue

open Cert.KernelIdeal Cert.KernelIdeal.Gen Cert.KernelIdeal.GenP
open Idealize.ShloMosaic Idealize.ShloMosaic.TcCoe Idealize.SL.Sem Idealize.ShloMosaic.ValueIdx Cert.CausalSoftmax
open Idealize.ShloMosaic.Pipeline (Dat)
open Idealize.ShloMosaic.StableHlo

variable (m : (ℓ : Loc nD τ sig) → Buf (Elt Ideal) ℓ) (ρ : Dev nD → PrngReg)

/-- The two index maps at a point, decided over the 256 points: block (a, j, 0) for the point with coordinates (a, j). -/
theorem idx_facts : ∀ t : Fin cfg0.N,
    win0_0.index t (0 : Fin 3) = (grid0.coords t 0).val ∧ win0_0.index t (1 : Fin 3) = (grid0.coords t 1).val
    ∧ win0_0.index t (2 : Fin 3) = 0
    ∧ win0_1.index t (0 : Fin 3) = (grid0.coords t 0).val ∧ win0_1.index t (1 : Fin 3) = (grid0.coords t 1).val
    ∧ win0_1.index t (2 : Fin 3) = 0 :=
  (by decide +kernel : ∀ t : Fin grid0.N, _)

/-- Every block (a, j, 0) is some point's. -/
theorem idx_onto : ∀ (q0 : Fin 32) (q1 : Fin 8), ∃ t : Fin cfg0.N, win0_1.index t = ![q0.val, q1.val, 0] :=
  (by decide +kernel : ∀ (q0 : Fin 32) (q1 : Fin 8), ∃ t : Fin grid0.N, win0_1.index t = ![q0.val, q1.val, 0])

/-- The input block at point (a, j), at (0, p, k), is the array the kernel found at (a, 256·j + p, k). -/
theorem iblk_apply (c : Dev nD) (t : Fin cfg0.N) (p : Fin 256) (k : Fin 2048)
    (h0 : (grid0.coords t 0).val < 32) (h1 : (grid0.coords t 1).val * 256 + p.val < 2048) :
    iblk m c 0 t (ix3 (0 : Fin 1) p k)
      = V m c main_v0 (ix3 (⟨(grid0.coords t 0).val, h0⟩ : Fin 32) (⟨(grid0.coords t 1).val * 256 + p.val, h1⟩ : Fin 2048) k) := by
  obtain ⟨e0, e1, e2, -⟩ := idx_facts t
  unfold iblk
  show V m c main_v0 (((cfg0.win 0).blk t).view.emb (ix3 (0 : Fin 1) p k)) = V m c main_v0 _
  refine congrArg (V m c main_v0) (funext fun a => Fin.ext ?_)
  match a with
  | ⟨0, _⟩ => show win0_0.index t (0 : Fin 3) * 1 + 1 * 0 = (grid0.coords t 0).val; omega
  | ⟨1, _⟩ => show win0_0.index t (1 : Fin 3) * 256 + 1 * p.val = (grid0.coords t 1).val * 256 + p.val; omega
  | ⟨2, _⟩ => show win0_0.index t (2 : Fin 3) * 2048 + 1 * k.val = k.val; omega

/-- WHAT POINT `t` WRITES BACK is block `t` of `G3` of the array the kernel found. -/
theorem flushed_eq (c : Dev nD) (t : Fin cfg0.N) :
    (dats m 0 c).flushed 1 t = ((cfg0.win 1).blk t).view.read (Elt Ideal) (G3 (V m c main_v0)) := by
  show (cfg0.win 1).cut (grid0.coords t) ((dats m 0 c).after 1 t) = _
  rw [after0_1, out_eq]
  obtain ⟨-, -, -, e0, e1, e2⟩ := idx_facts t
  have h0 : (grid0.coords t 0).val < 32 := (grid0.coords t 0).isLt
  have h1 : (grid0.coords t 1).val < 8 := (grid0.coords t 1).isLt
  funext j
  show k0_pay1 (grid0.coords t) (iblk m c 0 t) j = G3 (V m c main_v0) (((cfg0.win 1).blk t).view.emb j)
  have hj0 : (j 0).val < 1 := (j 0).isLt
  have hj1 : (j 1).val < 256 := (j 1).isLt
  have hj2 : (j 2).val < 2048 := (j 2).isLt
  have hemb : ((cfg0.win 1).blk t).view.emb j
      = ix3 (⟨(grid0.coords t 0).val, h0⟩ : Fin 32) (⟨(grid0.coords t 1).val * 256 + (j 1).val, by omega⟩ : Fin 2048)
          (⟨(j 2).val, hj2⟩ : Fin 2048) := by
    funext a; apply Fin.ext
    match a with
    | ⟨0, _⟩ => show win0_1.index t (0 : Fin 3) * 1 + 1 * (j 0).val = (grid0.coords t 0).val; omega
    | ⟨1, _⟩ => show win0_1.index t (1 : Fin 3) * 256 + 1 * (j 1).val = (grid0.coords t 1).val * 256 + (j 1).val; omega
    | ⟨2, _⟩ => show win0_1.index t (2 : Fin 3) * 2048 + 1 * (j 2).val = (j 2).val; omega
  rw [hemb, G3_apply]
  refine (pay_apply_idx (grid0.coords t) (iblk m c 0 t) j).trans ?_
  refine congrArg (fun f => rowOut ((grid0.coords t 1).val * 256 + (j 1).val) f (⟨(j 2).val, hj2⟩ : Fin 2048)) (funext fun k => ?_)
  exact iblk_apply m c t (⟨(j 1).val, hj1⟩ : Fin 256) k h0 (by show (grid0.coords t 1).val * 256 + (j 1).val < 2048; omega)

/-- An index of the array is in point `t`'s block iff each coordinate is in the block's range on its axis. -/
theorem mem_blk (t : Fin cfg0.N) (i : S32x2048x2048.Idx) :
    i ∈ ((cfg0.win 1).blk t).view.set ↔ ∀ a : Fin 3, win0_1.index t a * S1x256x2048.size a ≤ (i a).val
      ∧ (i a).val < win0_1.index t a * S1x256x2048.size a + S1x256x2048.size a := by
  show i ∈ ((View.whole main_v1).slice (win0_1.rect t)).set ↔ _
  rw [View.set_slice_whole, Rect.mem_set_unit]
  exact Iff.rfl

/-- The output blocks tile the array: entry (a, r, c) lies in the block of the point (a, r / 256). -/
theorem cover (i : S32x2048x2048.Idx) :
    ∃ t : Fin cfg0.N, (cfg0.win 1).flush t = true ∧ i ∈ ((cfg0.win 1).blk t).view.set := by
  have hi0 : (i 0).val < 32 := (i 0).isLt
  have hi1 : (i 1).val < 2048 := (i 1).isLt
  have hi2 : (i 2).val < 2048 := (i 2).isLt
  obtain ⟨t, ht⟩ := idx_onto ⟨(i 0).val, hi0⟩ ⟨(i 1).val / 256, by omega⟩
  have q0 : win0_1.index t (0 : Fin 3) = (i 0).val := congrFun ht 0
  have q1 : win0_1.index t (1 : Fin 3) = (i 1).val / 256 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 256 ≤ (i 1).val ∧ (i 1).val < win0_1.index t (1 : Fin 3) * 256 + 256; omega
  | ⟨2, _⟩ => show win0_1.index t (2 : Fin 3) * 2048 ≤ (i 2).val ∧ (i 2).val < win0_1.index t (2 : Fin 3) * 2048 + 2048; omega

/-- THE ARRAY after the kernel: `G3` of the array it found. -/
theorem final (c : Dev nD) : (dats m 0 c).arrAt 1 cfg0.N = G3 (V m c main_v0) :=
  (dats m 0 c).arrAt_eq_of_cover 1 (G3 (V m c main_v0)) (fun t _ => flushed_eq m c t) cover

/-- The array the kernel finds is the argument regrouped to [32, 2048, 2048]. -/
theorem V_main_v0 (c : Dev nD) :
    (V m c main_v0 : S32x2048x2048.Idx → EReal)
      = shapeCast S32x2048x2048 (m ((c : Thread nD τ).loc main_arg0)) shapeCasts_S2x16x2048x2048_S32x2048x2048 := by
  show StableHlo.after hostOps0 (fun b => m (c, b)) (Proc.devRef .tc main_v0) = _
  after_results
  rfl

/-- The program's result is the kernel's array regrouped to [2, 16, 2048, 2048]. -/
theorem tail_eq (c : Dev nD) :
    (Pipeline.afterTail₀ cfgs (dats m) 0 (V0 m) [hostOps1] c main_v2 : S2x16x2048x2048.Idx → EReal)
      = shapeCast S2x16x2048x2048 (G3 (shapeCast S32x2048x2048 (m ((c : Thread nD τ).loc main_arg0)) shapeCasts_S2x16x2048x2048_S32x2048x2048))
          shapeCasts_S32x2048x2048_S2x16x2048x2048 := by
  unfold Pipeline.afterTail₀
  show StableHlo.after hostOps1 _ (Proc.devRef .tc main_v2) = _
  after_results
  have hw : (Pipeline.withArrays (cfgs 0).spec c (V0 m c) (fun w => (dats m 0 c).arrAt w (cfgs 0).N) (Proc.devRef .tc main_v1)
        : S32x2048x2048.Idx → EReal)
      = G3 (shapeCast S32x2048x2048 (m ((c : Thread nD τ).loc main_arg0)) shapeCasts_S2x16x2048x2048_S32x2048x2048) :=
    (Pipeline.withArrays_arr spec0 launch0.win.arr_inj c _ _ 1).trans ((final m c).trans (congrArg G3 (V_main_v0 m c)))
  funext i
  exact congrArg (fun g : S32x2048x2048.Idx → EReal => shapeCast S2x16x2048x2048 g shapeCasts_S32x2048x2048_S2x16x2048x2048 i) hw

end Cert.KernelIdeal.RowValue

end
-- ==== Proof.Regroup.lean ====
/-
  The two regroupings around the kernel cancel against the row structure: viewing [2, 16, 2048, 2048] as 32 matrices
  (matrix number 16·b + h, the same row-major order), taking the causal softmax of every row, and viewing the result as
  [2, 16, 2048, 2048] again is the causal softmax of every row of the array as given.
-/
import proofs.«114025_j27779848470603_1_alg».proof.Proof.RowSpec

noncomputable section

namespace Cert.CausalSoftmax

open Idealize.ShloMosaic Idealize.ShloMosaic.ValueIdx

abbrev A4 : Shape := ⟨4, ![2, 16, 2048, 2048]⟩
abbrev A3 : Shape := ⟨3, ![32, 2048, 2048]⟩

theorem regroup (x : A4.Idx → EReal) (h : A4.ShapeCasts A3) (h' : A3.ShapeCasts A4) :
    shapeCast A4 (G3 (shapeCast A3 x h)) h' = G4 x := by
  funext i
  obtain ⟨b, hh, r, c, rfl⟩ : ∃ (b : Fin 2) (hh : Fin 16) (r c : Fin 2048), i = ix4 b hh r c :=
    ⟨i 0, i 1, i 2, i 3, eq_ix4 i⟩
  have hb : b.val * 16 + hh.val < 32 := by have := b.isLt; have := hh.isLt; omega
  refine (shapeCast_apply (G3 (shapeCast A3 x h)) h' (ix4 b hh r c) (ix3 (⟨b.val * 16 + hh.val, hb⟩ : Fin 32) r c) ?_).trans ?_
  · rw [Shape.rowMajor_val_three, Shape.rowMajor_val_four]
    rfl
  rw [G3_apply, G4_apply]
  refine congrArg (fun f => rowOut r.val f c) (funext fun k => ?_)
  refine shapeCast_apply x h (ix3 (⟨b.val * 16 + hh.val, hb⟩ : Fin 32) r k) (ix4 b hh r k) ?_
  rw [Shape.rowMajor_val_three, Shape.rowMajor_val_four]
  rfl

end Cert.CausalSoftmax

end
-- ==== Proof.RefValue.lean ====
/-
  The reference, stage by stage, is the causal softmax of every row.

  Its mask is a lower-triangular table of bits ("row ≥ column", then a select of the bits 1 and 0) broadcast over the two
  leading axes; masked entries are the scaled argument where the bit is set and the fill value elsewhere. The row maximum
  is a fold of `max` from −∞, taken once more against −∞ (which changes nothing); then the subtraction, the exponential,
  the row sum from the initial value 0, and the quotient.
-/
import proofs.«114025_j27779848470603_1_alg».proof.Proof.Gen.ReferenceIdeal.Read
import proofs.«114025_j27779848470603_1_alg».proof.Proof.RowSpec

noncomputable section

namespace Cert.ReferenceIdeal.RefValue

open Cert.ReferenceIdeal Cert.ReferenceIdeal.Gen Cert.ReferenceIdeal.Read
open Idealize.ShloMosaic Idealize.ShloMosaic.ValueIdx Cert.CausalSoftmax

/-- The masked stage at (b, h, r, k): the causal mask of row `r` applied to the argument's row. -/
theorem masked_apply (x : (⟨S2x16x2048x2048, .f32⟩ : BufTy).Contents (Elt Ideal)) (b : Fin 2) (h : Fin 16) (r k : Fin 2048) :
    val_main_v4 (F := Ideal) x (ix4 b h r k) = keep r.val (fun k => x (ix4 b h r k)) k := by
  rw [val_main_v4_apply, val_main_call1_v1_apply, val_main_v1_apply, val_main_call0_v4_apply, val_main_call0_v2_apply,
    val_main_call0_v0_apply, val_main_call0_v1_apply, val_main_call0_c_apply, val_main_call0_v3_apply, val_main_v0_apply,
    val_main_c_apply, val_main_call0_v5_apply, val_main_call0_c_0_apply, val_main_v3_apply, val_main_v2_apply,
    val_main_cst_apply, val_main_call1_v2_apply, val_main_call1_v0_apply, val_main_cst_0_apply, select_bit]
  exact select_sge k.val r.val (by have := k.isLt; omega) _ (rowWordHost r.val r.isLt) _ _

/-- The index over (b, h, r) with column `k` inserted is (b, h, r, k). -/
theorem lift_row (hr : S2x16x2048x2048.Reduces [3] S2x16x2048) (b : Fin 2) (h : Fin 16) (r k : Fin 2048) :
    hr.lift (ix3 b h r) k = ix4 b h r k := by
  funext a
  refine Fin.ext ?_
  match a with
  | ⟨0, _⟩ => rfl
  | ⟨1, _⟩ => rfl
  | ⟨2, _⟩ => rfl
  | ⟨3, _⟩ => rfl

/-- The row maximum stage at (b, h, r): the fold of `max` from −∞ over the masked row. -/
theorem rowmax_apply (x : (⟨S2x16x2048x2048, .f32⟩ : BufTy).Contents (Elt Ideal)) (b : Fin 2) (h : Fin 16) (r : Fin 2048) :
    val_main_v7 (F := Ideal) x (ix3 b h r) = Finset.univ.fold max negInf (keep r.val (fun k => x (ix4 b h r k))) := by
  have hr : S2x16x2048x2048.Reduces [3] S2x16x2048 := by decide
  rw [val_main_v7_apply, val_main_v6_apply, val_main_cst_2_apply]
  unfold val_main_v5
  refine (congrArg (FloatOps.maximumf (F := Ideal) (φ := .f32) (FloatOps.ofBits .f32 0xFF800000#32))
    (Host.reduce_eq_fold_single (FloatOps.maximumf (F := Ideal) (φ := .f32)) (val_main_v4 (F := Ideal) x) (val_main_cst_1 (F := Ideal))
      reducesTo_S2x16x2048x2048_S2x16x2048_d3 hr h_S_ (ix3 b h r))).trans ?_
  show max negInf (Finset.univ.fold max negInf (fun k : Fin 2048 => val_main_v4 (F := Ideal) x (hr.lift (ix3 b h r) k))) = _
  rw [max_fold_self]
  refine congrArg (fun g => Finset.univ.fold max negInf g) (funext fun k => ?_)
  rw [lift_row, masked_apply]

/-- The exponential stage at (b, h, r, k). -/
theorem exp_apply (x : (⟨S2x16x2048x2048, .f32⟩ : BufTy).Contents (Elt Ideal)) (b : Fin 2) (h : Fin 16) (r k : Fin 2048) :
    val_main_v11 (F := Ideal) x (ix4 b h r k)
      = Ideal.exp (keep r.val (fun k => x (ix4 b h r k)) k - Finset.univ.fold max negInf (keep r.val (fun k => x (ix4 b h r k)))) := by
  have hidx : idx_main_v8 (idx_main_v9 (ix4 b h r k)) = ix3 b h r := by
    funext a
    refine Fin.ext ?_
    match a with
    | ⟨0, _⟩ => rfl
    | ⟨1, _⟩ => rfl
    | ⟨2, _⟩ => rfl
  rw [val_main_v11_apply, val_main_v10_apply, val_main_v9_apply, val_main_v8_apply, hidx, rowmax_apply, masked_apply]
  rfl

/-- THE REFERENCE'S RESULT is the causal softmax of every row of its argument. -/
theorem result_eq (x : (⟨S2x16x2048x2048, .f32⟩ : BufTy).Contents (Elt Ideal)) : val_main_v15 (F := Ideal) x = G4 x := by
  funext i
  obtain ⟨b, h, r, c, rfl⟩ : ∃ (b : Fin 2) (h : Fin 16) (r c : Fin 2048), i = ix4 b h r c :=
    ⟨i 0, i 1, i 2, i 3, eq_ix4 i⟩
  have hidx : idx_main_v13 (idx_main_v14 (ix4 b h r c)) = ix3 b h r := by
    funext a
    refine Fin.ext ?_
    match a with
    | ⟨0, _⟩ => rfl
    | ⟨1, _⟩ => rfl
    | ⟨2, _⟩ => rfl
  have hk : ∀ k : Fin 2048, idx_main_v12 (ix3 b h r) k = ix4 b h r k := by
    intro k
    funext a
    refine Fin.ext ?_
    match a with
    | ⟨0, _⟩ => rfl
    | ⟨1, _⟩ => rfl
    | ⟨2, _⟩ => rfl
    | ⟨3, _⟩ => rfl
  rw [G4_apply, val_main_v15_apply, val_main_v14_apply, val_main_v13_apply, hidx, val_main_v12_apply, val_main_cst_3_apply, exp_apply]
  unfold rowOut softmaxRow
  show Ideal.div _ (Ideal.ofBits .f32 0x00000000#32 + _) = _
  rw [Ideal.ofBits_zero_f32, zero_add]
  refine congrArg (Ideal.div _) (Finset.sum_congr rfl fun k _ => ?_)
  rw [hk, exp_apply]

end Cert.ReferenceIdeal.RefValue

end
-- ==== Proof.lean ====
/-
  The certificate of a causal scaled softmax: a kernel that streams [1, 256, 2048] row tiles of 32 matrices against a
  reference that works on the [2, 16, 2048, 2048] array whole.

  Both programs compute, for every row r of every matrix, with the 2048 entries x of the row:
      g c = x c · 2⁻³ if c ≤ r, the finite fill value −10³⁰ otherwise;   M = max over c of g c;
      result c = exp (g c − M) / Σₖ exp (g k − M).
  The kernel builds the mask from the row tile's number and two iotas, the reference from a lower-triangular table of bits;
  both read "column ≤ row" on naturals below 2048. The reference takes its row maximum once more against −∞ and starts its
  row sum from 0; neither changes a value. The operations are otherwise the same in the same order, so the two results are
  equal as extended reals for every input, and the precondition is not used. The kernel's row tiles are independent and
  tile the array, and the regrouping of [2, 16, 2048, 2048] into 32 matrices before the kernel is undone after it.
-/
import proofs.«114025_j27779848470603_1_alg».proof.Defs
import proofs.«114025_j27779848470603_1_alg».proof.Proof.Gen.Kernel
import proofs.«114025_j27779848470603_1_alg».proof.Proof.Gen.KernelIdeal
import proofs.«114025_j27779848470603_1_alg».proof.Proof.Gen.ReferenceIdeal
import proofs.«114025_j27779848470603_1_alg».proof.Proof.Gen.Pre_finite_inputs
import proofs.«114025_j27779848470603_1_alg».proof.Proof.Gen.ReferenceIdeal.Run
import proofs.«114025_j27779848470603_1_alg».proof.Proof.Gen.ReferenceIdeal.Read
import proofs.«114025_j27779848470603_1_alg».proof.Proof.KernelFrame
import proofs.«114025_j27779848470603_1_alg».proof.Proof.KernelIdealFrame
import proofs.«114025_j27779848470603_1_alg».proof.Proof.KernelArray
import proofs.«114025_j27779848470603_1_alg».proof.Proof.Regroup
import proofs.«114025_j27779848470603_1_alg».proof.Proof.RefValue
import Idealize.ShloMosaic.Adequacy
import Idealize.ShloMosaic.Init

noncomputable section

namespace Cert.Proof

open Idealize.ShloMosaic Idealize.ShloMosaic.TcCoe Idealize.SL.Sem Cert.CausalSoftmax

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.GenP.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.GenP.frame m ρ

/-- The reference runs and leaves its arguments as they were: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The kernel's run over the extended reals ends with the causal softmax of every row of its argument in its result, the
    arguments unchanged: the array the kernel leaves, regrouped. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v2)
          = G4 (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)) :=
  (θ_run Cert.KernelIdeal.defs _ _).mono (fun _ h c =>
    ⟨((h c).2 Cert.KernelIdeal.main_v2 (Pipeline.mem_restRefs_of Cert.KernelIdeal.main_v2 (by decide) (by decide))).trans
        ((Cert.KernelIdeal.RowValue.tail_eq m c).trans (regroup _ _ _)),
      ((h c).2 Cert.KernelIdeal.main_arg0 (Pipeline.mem_restRefs_of Cert.KernelIdeal.main_arg0 (by decide) (by decide))).trans
        (Cert.KernelIdeal.GenP.W_main_arg0 m (Cert.KernelIdeal.GenP.dats m) c),
      ((h c).2 Cert.KernelIdeal.main_arg1 (Pipeline.mem_restRefs_of Cert.KernelIdeal.main_arg1 (by decide) (by decide))).trans
        (Cert.KernelIdeal.GenP.W_main_arg1 m (Cert.KernelIdeal.GenP.dats m) c)⟩)
    (Cert.KernelIdeal.GenP.run_main m ρ)

/-- From memories agreeing on the arguments both programs end with the causal softmax of every row of the same array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => G4 (m ((c.tc : Thread Cert.KernelIdeal.nD Cert.KernelIdeal.τ).loc Cert.KernelIdeal.main_arg0)), kernel_run m ρ, ?_⟩
  refine (θ_run Cert.ReferenceIdeal.defs _ _).mono (fun _ h c => ⟨(h c).1.trans ?_, (h c).2⟩)
    (Cert.ReferenceIdeal.Value.run (F := Ideal) m' ρ')
  exact (Cert.ReferenceIdeal.Read.val_main_v15_eq _).trans
    ((Cert.ReferenceIdeal.RefValue.result_eq _).trans (congrArg G4 (hagree c).1))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
